-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x40 .f32) (main_arg5 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1x40 : Shape := ⟨2, ![1, 40]⟩
abbrev S100000x40 : Shape := ⟨2, ![100000, 40]⟩
abbrev S10000x64 : Shape := ⟨2, ![10000, 64]⟩
abbrev S10000x40 : Shape := ⟨2, ![10000, 40]⟩

abbrev nBuf : Space → Nat
  | .hbm => 97
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1700000x1, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S1700000x64, .f32⟩
  | .hbm, ⟨73, _⟩ => ⟨S1700000x64, .f32⟩
  | .hbm, ⟨74, _⟩ => ⟨S_, .f32⟩
  | .hbm, ⟨75, _⟩ => ⟨S100000x64, .f32⟩
  | .hbm, ⟨76, _⟩ => ⟨S1700000x1, .i32⟩
  | .hbm, ⟨77, _⟩ => ⟨S100000x64, .f32⟩
  | .hbm, ⟨78, _⟩ => ⟨S1700000x1, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x64, .f32⟩
  | .hbm, ⟨88, _⟩ => ⟨S1700000x64, .f32⟩
  | .hbm, ⟨89, _⟩ => ⟨S1700000x64, .f32⟩
  | .hbm, ⟨90, _⟩ => ⟨S_, .f32⟩
  | .hbm, ⟨91, _⟩ => ⟨S100000x64, .f32⟩
  | .hbm, ⟨92, _⟩ => ⟨S1700000x1, .i32⟩
  | .hbm, ⟨93, _⟩ => ⟨S100000x64, .f32⟩
  | .hbm, ⟨94, _⟩ => ⟨S1x64, .f32⟩
  | .hbm, ⟨95, _⟩ => ⟨S1x40, .f32⟩
  | .hbm, ⟨96, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x40, .f32⟩
  | .local _ .vmem, ⟨5, _⟩ => ⟨S1x40, .f32⟩
  | .local _ .vmem, ⟨6, _⟩ => ⟨S10000x40, .f32⟩
  | .local _ .vmem, ⟨7, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S40_S1x40 : S40.ShapeCasts S1x40
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x40.size a ≤ S64x40.size a
  hwx0_3 : ∀ i : grid0.Coords, EltTy.bits .f32 = 32 ∨ (Rect.block (s := S64x40) S64x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x40.size a ≤ S1x40.size a
  hwx0_4 : ∀ i : grid0.Coords, EltTy.bits .f32 = 32 ∨ (Rect.block (s := S1x40) S1x40.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x40.size a ≤ S100000x40.size a
  hwx0_5 : ∀ i : grid0.Coords, EltTy.bits .f32 = 32 ∨ (Rect.block (s := S100000x40) S10000x40.size (cc0_transform_5 i) (hinb0_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_v68) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v69) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v70) S1x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v71) S10000x40.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1x40 : Shape := ⟨2, ![1, 40]⟩

abbrev nBuf : Space → Nat
  | .hbm => 102
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x64, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1700000x1, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S1700000x64, .f32⟩
  | .hbm, ⟨73, _⟩ => ⟨S1700000x64, .f32⟩
  | .hbm, ⟨74, _⟩ => ⟨S_, .f32⟩
  | .hbm, ⟨75, _⟩ => ⟨S100000x64, .f32⟩
  | .hbm, ⟨76, _⟩ => ⟨S1700000x1, .i32⟩
  | .hbm, ⟨77, _⟩ => ⟨S100000x64, .f32⟩
  | .hbm, ⟨78, _⟩ => ⟨S1700000x1, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x64, .f32⟩
  | .hbm, ⟨88, _⟩ => ⟨S1700000x64, .f32⟩
  | .hbm, ⟨89, _⟩ => ⟨S1700000x64, .f32⟩
  | .hbm, ⟨90, _⟩ => ⟨S_, .f32⟩
  | .hbm, ⟨91, _⟩ => ⟨S100000x64, .f32⟩
  | .hbm, ⟨92, _⟩ => ⟨S1700000x1, .i32⟩
  | .hbm, ⟨93, _⟩ => ⟨S100000x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S100000x40, .f32⟩
  | .hbm, ⟨99, _⟩ => ⟨S1x40, .f32⟩
  | .hbm, ⟨100, _⟩ => ⟨S100000x40, .f32⟩
  | .hbm, ⟨101, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.DenseRow.lean ====
/-
  The dense head of a simple graph convolution, one output entry at a time.

  After the graph propagation every node `r` holds a row `p` of 64 features. The head applies two affine
  layers in a row: a 64 → 64 layer `(W₁, b₁)` and a 64 → 40 layer `(W₂, b₂)`. Over the extended reals the
  entry of node `r` at output column `c` is

      ∑ₖ (∑ⱼ p j · W₁ j k + b₁ k) · W₂ k c + b₂ c,

  a function of that node's row alone. Both programs compute exactly this expression, in this grouping: the
  inner sum and its bias first, then the outer sum and its bias. No sum is reordered and no product is
  distributed over a sum, so the equality holds at every extended real, infinities included, and the
  finiteness of the inputs is never used.
-/
import Idealize.ShloMosaic.PureOps.Ideal.Laws
import Idealize.ShloMosaic.Lib.ValueIdx

noncomputable section

namespace Cert.SgcHead

open Idealize.ShloMosaic Idealize.ShloMosaic.ValueIdx

/-- The hidden layer at column `k`, from one row of features: `∑ⱼ p j · W₁ j k + b₁ k`. -/
def hidden (p : Fin 64 → EReal) (W1 : Fin 64 → Fin 64 → EReal) (b1 : Fin 64 → EReal) (k : Fin 64) : EReal :=
  (∑ j : Fin 64, p j * W1 j k) + b1 k

/-- The head's output at column `c`, from one row of features: `∑ₖ hidden k · W₂ k c + b₂ c`. -/
def rowOut (p : Fin 64 → EReal) (W1 : Fin 64 → Fin 64 → EReal) (b1 : Fin 64 → EReal)
    (W2 : Fin 64 → Fin 40 → EReal) (b2 : Fin 40 → EReal) (c : Fin 40) : EReal :=
  (∑ k : Fin 64, hidden p W1 b1 k * W2 k c) + b2 c

/-- The whole output array `[100000, 40]` as ONE function of the propagated features `[100000, 64]`, the two
    weight matrices and the two bias vectors: entry `(r, c)` is `rowOut` of row `r` of the features. -/
def headOf (P : (⟨2, ![100000, 64]⟩ : Shape).Idx → EReal) (W1 : (⟨2, ![64, 64]⟩ : Shape).Idx → EReal)
    (b1 : (⟨1, ![64]⟩ : Shape).Idx → EReal) (W2 : (⟨2, ![64, 40]⟩ : Shape).Idx → EReal)
    (b2 : (⟨1, ![40]⟩ : Shape).Idx → EReal) : (⟨2, ![100000, 40]⟩ : Shape).Idx → EReal :=
  fun i => rowOut (fun j => P (ix2 (i 0) j)) (fun j k => W1 (ix2 j k)) (fun k => b1 (ix1 k))
    (fun k c => W2 (ix2 k c)) (fun c => b2 (ix1 c)) (i 1)

/-- `headOf` at explicit coordinates. -/
theorem headOf_apply (P : (⟨2, ![100000, 64]⟩ : Shape).Idx → EReal) (W1 : (⟨2, ![64, 64]⟩ : Shape).Idx → EReal)
    (b1 : (⟨1, ![64]⟩ : Shape).Idx → EReal) (W2 : (⟨2, ![64, 40]⟩ : Shape).Idx → EReal)
    (b2 : (⟨1, ![40]⟩ : Shape).Idx → EReal) (r : Fin 100000) (c : Fin 40) :
    headOf P W1 b1 W2 b2 (ix2 r c)
      = rowOut (fun j => P (ix2 r j)) (fun j k => W1 (ix2 j k)) (fun k => b1 (ix1 k))
          (fun k c => W2 (ix2 k c)) (fun c => b2 (ix1 c)) c := rfl

end Cert.SgcHead

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«179937_j5643587027282_1_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.KernelRows.lean ====
/-
  What one grid point's body computes, entry by entry.

  The body loads a block of 10000 rows of propagated features `x₀`, the two weight matrices `x₁`, `x₃` and the
  two bias rows `x₂`, `x₄` (each a `[1, n]` array), and stores

      matmul (round (matmul (round x₀) (round x₁) + x₂ broadcast over the rows)) (round x₃) + x₄ broadcast.

  At the extended reals rounding to a narrower format is the identity, a matmul into the zero accumulator is the
  plain sum over the contracted coordinate, and a `[1, n]` row broadcast over the rows reads its one row. So the
  stored entry at block row `p`, column `c` is `rowOut` of row `p` of the block: it depends on the block only
  through that row.
-/
import proofs.«179937_j5643587027282_1_alg».proof.Proof.Gen.KernelIdeal.Skeleton
import proofs.«179937_j5643587027282_1_alg».proof.Proof.DenseRow
import proofs.«179937_j5643587027282_1_alg».proof.Proof.LibPlainDot
import proofs.«179937_j5643587027282_1_alg».proof.Proof.LibDenseLayer
import Idealize.ShloMosaic.Lib.ValueLayout
import Idealize.ShloMosaic.Lib.Pipeline.Value
import Idealize.ShloMosaic.PureOps.Ideal.Laws

noncomputable section

namespace Cert.SgcHead.KernelRows

open Cert.KernelIdeal Cert.KernelIdeal.Gen Idealize.ShloMosaic Idealize.ShloMosaic.ValueIdx Cert.Lib.DenseLayer

/-! ## The two contraction records of the body are plain matrix products -/

theorem d1_l0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem d1_l1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem d1_r0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem d1_r1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

theorem d2_l0 (i : S10000x40.Idx) (q : dot_S10000x64_S64x40_S10000x40_1_0_0_1_n_n.contr.Idx) : (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide),
    dif_pos (show (0 : Fin S10000x64.rank) ∈ dot_S10000x64_S64x40_S10000x40_1_0_0_1_n_n.lhsNonContracting by decide)]
  rfl
theorem d2_l1 (i : S10000x40.Idx) (q : dot_S10000x64_S64x40_S10000x40_1_0_0_1_n_n.contr.Idx) : (dot_S10000x64_S64x40_S10000x40_1_0_0_1_n_n.lhsIdx i q 1).val = (q ⟨0, by decide⟩).val :=
  dot_S10000x64_S64x40_S10000x40_1_0_0_1_n_n.lhsIdx_val_of_single rfl i q
theorem d2_r0 (i : S10000x40.Idx) (q : dot_S10000x64_S64x40_S10000x40_1_0_0_1_n_n.contr.Idx) : (dot_S10000x64_S64x40_S10000x40_1_0_0_1_n_n.rhsIdx i q 0).val = (q ⟨0, by decide⟩).val :=
  dot_S10000x64_S64x40_S10000x40_1_0_0_1_n_n.rhsIdx_val_of_single rfl i q
theorem d2_r1 (i : S10000x40.Idx) (q : dot_S10000x64_S64x40_S10000x40_1_0_0_1_n_n.contr.Idx) : (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide),
    dif_pos (show (1 : Fin S64x40.rank) ∈ dot_S10000x64_S64x40_S10000x40_1_0_0_1_n_n.rhsNonContracting by decide)]
  rfl

/-! ## The payload -/

/-- The body's stored value, as the printed operations of its five loads. -/
theorem pay_eq (x0 : Vec Ideal S10000x64 .f32) (x1 : Vec Ideal S64x64 .f32) (x2 : Vec Ideal S1x64 .f32)
    (x3 : Vec Ideal S64x40 .f32) (x4 : Vec Ideal S1x40 .f32) :
    k0_pay1 x0 x1 x2 x3 x4
      = addf (matmul dot_S10000x64_S64x40_S10000x40_1_0_0_1_n_n none
            (truncf .bf16 (addf (matmul dot_S10000x64_S64x64_S10000x64_1_0_0_1_n_n none
                (truncf .bf16 (shapeCast S10000x64 x0 shapeCasts_S10000x64_S10000x64) bitsLt_bf16_f32)
                (truncf .bf16 x1 bitsLt_bf16_f32) (constant (F := Ideal) S10000x64 .f32 0x00000000#32))
              (broadcastTo S10000x64 (shapeCast S1x64 x2 shapeCasts_S1x64_S1x64) broadcasts_S1x64_S10000x64)) bitsLt_bf16_f32)
            (truncf .bf16 x3 bitsLt_bf16_f32) (constant (F := Ideal) S10000x40 .f32 0x00000000#32))
          (broadcastTo S10000x40 (shapeCast S1x40 x4 shapeCasts_S1x40_S1x40) broadcasts_S1x40_S10000x40) := rfl

/-- THE PAYLOAD AT AN ENTRY: block row `p`, column `c` of what the body stores is `rowOut` of row `p` of the
    loaded features, the loaded weights, and the one row of each loaded bias. -/
theorem pay_apply (x0 : Vec Ideal S10000x64 .f32) (x1 : Vec Ideal S64x64 .f32) (x2 : Vec Ideal S1x64 .f32)
    (x3 : Vec Ideal S64x40 .f32) (x4 : Vec Ideal S1x40 .f32) (p : Fin 10000) (c : Fin 40) :
    k0_pay1 x0 x1 x2 x3 x4 (ix2 p c)
      = rowOut (fun j => x0 (ix2 p j)) (fun j k => x1 (ix2 j k)) (fun k => x2 (ix2 (0 : Fin 1) k))
          (fun k c => x3 (ix2 k c)) (fun c => x4 (ix2 (0 : Fin 1) c)) c := by
  rw [pay_eq, layer_apply dot_S10000x64_S64x40_S10000x40_1_0_0_1_n_n rfl rfl d2_l0 d2_l1 d2_r0 d2_r1]
  simp only [shapeCast_self]
  unfold rowOut hidden
  refine congrArg (· + x4 (ix2 (0 : Fin 1) c)) (Finset.sum_congr rfl fun k _ => ?_)
  rw [truncf_apply, truncf_apply, layer_apply dot_S10000x64_S64x64_S10000x64_1_0_0_1_n_n rfl rfl d1_l0 d1_l1 d1_r0 d1_r1]
  rfl

end Cert.SgcHead.KernelRows

end
-- ==== Proof.KernelBlocks.lean ====
/-
  One grid point's block, over arbitrary arrays.

  The pallas_call runs over 10 grid points. Point `t` stages rows `10000·t … 10000·t + 9999` of the features'
  array (window 0), the whole of both weight matrices and of both one-row bias arrays (windows 1–4: the same block
  at every point), and writes back rows `10000·t … 10000·t + 9999` of the output (window 5). An output entry depends
  on the features only through its own row, so what point `t` computes from its staged blocks is block `t` of ONE
  function of the whole arrays, `headK`; and the 10 output blocks tile the output array. Everything here is stated
  for arbitrary arrays: which arrays the region finds is another matter.
-/
import proofs.«179937_j5643587027282_1_alg».proof.Proof.Gen.KernelIdeal.Value
import proofs.«179937_j5643587027282_1_alg».proof.Proof.KernelRows
import Idealize.ShloMosaic.Lib.Pipeline.Value
import Idealize.ShloMosaic.Lib.ValueLayout

set_option maxRecDepth 16384

noncomputable section

namespace Cert.SgcHead.KernelBlocks

open Cert.KernelIdeal Cert.KernelIdeal.Gen Idealize.ShloMosaic Idealize.ShloMosaic.TcCoe Idealize.SL.Sem
open Idealize.ShloMosaic.ValueIdx
open Cert.SgcHead Cert.SgcHead.KernelRows

/-! ## The head over the arrays as the region finds them -/

/-- The head with the two biases as ONE-ROW arrays `[1, 64]` and `[1, 40]`, which is how the region finds them:
    entry `(r, c)` is `rowOut` of row `r` of the features. -/
def headK (P : S100000x64.Idx → Elt Ideal .f32) (W1 : S64x64.Idx → Elt Ideal .f32) (B1 : S1x64.Idx → Elt Ideal .f32)
    (W2 : S64x40.Idx → Elt Ideal .f32) (B2 : S1x40.Idx → Elt Ideal .f32) : S100000x40.Idx → Elt Ideal .f32 :=
  fun i => rowOut (fun j => P (ix2 (i 0) j)) (fun j k => W1 (ix2 j k)) (fun k => B1 (ix2 (0 : Fin 1) k))
    (fun k c => W2 (ix2 k c)) (fun c => B2 (ix2 (0 : Fin 1) c)) (i 1)

theorem headK_apply (P : S100000x64.Idx → Elt Ideal .f32) (W1 : S64x64.Idx → Elt Ideal .f32) (B1 : S1x64.Idx → Elt Ideal .f32)
    (W2 : S64x40.Idx → Elt Ideal .f32) (B2 : S1x40.Idx → Elt Ideal .f32) (r : Fin 100000) (c : Fin 40) :
    headK P W1 B1 W2 B2 (ix2 r c)
      = rowOut (fun j => P (ix2 r j)) (fun j k => W1 (ix2 j k)) (fun k => B1 (ix2 (0 : Fin 1) k))
          (fun k c => W2 (ix2 k c)) (fun c => B2 (ix2 (0 : Fin 1) c)) c := rfl

/-- With each one-row bias array the reshape `[n] → [1, n]` of a bias vector, `headK` is `headOf` of the vectors. -/
theorem headK_reshape (P : S100000x64.Idx → Elt Ideal .f32) (W1 : S64x64.Idx → Elt Ideal .f32) (b1 : S64.Idx → Elt Ideal .f32)
    (W2 : S64x40.Idx → Elt Ideal .f32) (b2 : S40.Idx → Elt Ideal .f32) :
    headK P W1 (shapeCast S1x64 b1 shapeCasts_S64_S1x64) W2 (shapeCast S1x40 b2 shapeCasts_S40_S1x40)
      = headOf P W1 b1 W2 b2 := by
  funext i
  obtain ⟨r, c, rfl⟩ : ∃ (r : Fin 100000) (c : Fin 40), i = ix2 r c := ⟨i 0, i 1, eq_ix2 i⟩
  rw [headK_apply, headOf_apply]
  have e1 : (fun k : Fin 64 => shapeCast S1x64 b1 shapeCasts_S64_S1x64 (ix2 (0 : Fin 1) k)) = fun k => b1 (ix1 k) :=
    funext fun k => shapeCast_a_1a_apply b1 shapeCasts_S64_S1x64 0 k
  have e2 : (fun c : Fin 40 => shapeCast S1x40 b2 shapeCasts_S40_S1x40 (ix2 (0 : Fin 1) c)) = fun c => b2 (ix1 c) :=
    funext fun c => shapeCast_a_1a_apply b2 shapeCasts_S40_S1x40 0 c
  rw [e1, e2]

/-! ## One point -/

/-- ONE ENTRY OF ONE POINT: when the five loaded blocks are the whole arrays' entries — the features' block row
    `p` being the array's row `r`, the other four blocks the whole arrays — the payload at `(p, c)` is the head at
    `(r, c)`. Stated over variables of the literal block types, and instantiated at a point's blocks below. -/
theorem point_eq (P : S100000x64.Idx → Elt Ideal .f32) (W1 : S64x64.Idx → Elt Ideal .f32) (B1 : S1x64.Idx → Elt Ideal .f32)
    (W2 : S64x40.Idx → Elt Ideal .f32) (B2 : S1x40.Idx → Elt Ideal .f32)
    (x0 : Vec Ideal S10000x64 .f32) (x1 : Vec Ideal S64x64 .f32) (x2 : Vec Ideal S1x64 .f32)
    (x3 : Vec Ideal S64x40 .f32) (x4 : Vec Ideal S1x40 .f32) (p : Fin 10000) (c : Fin 40) (r : Fin 100000)
    (h0 : ∀ j : Fin 64, x0 (ix2 p j) = P (ix2 r j))
    (h1 : ∀ j k : Fin 64, x1 (ix2 j k) = W1 (ix2 j k))
    (h2 : ∀ k : Fin 64, x2 (ix2 (0 : Fin 1) k) = B1 (ix2 (0 : Fin 1) k))
    (h3 : ∀ (k : Fin 64) (c : Fin 40), x3 (ix2 k c) = W2 (ix2 k c))
    (h4 : ∀ c : Fin 40, x4 (ix2 (0 : Fin 1) c) = B2 (ix2 (0 : Fin 1) c)) :
    k0_pay1 x0 x1 x2 x3 x4 (ix2 p c) = headK P W1 B1 W2 B2 (ix2 r c) := by
  rw [pay_apply, headK_apply]
  have e0 : (fun j : Fin 64 => x0 (ix2 p j)) = fun j => P (ix2 r j) := funext h0
  have e1 : (fun j k : Fin 64 => x1 (ix2 j k)) = fun j k => W1 (ix2 j k) := funext fun j => funext fun k => h1 j k
  have e2 : (fun k : Fin 64 => x2 (ix2 (0 : Fin 1) k)) = fun k => B1 (ix2 (0 : Fin 1) k) := funext h2
  have e3 : (fun (k : Fin 64) (c : Fin 40) => x3 (ix2 k c)) = fun k c => W2 (ix2 k c) := funext fun k => funext fun c => h3 k c
  have e4 : (fun c : Fin 40 => x4 (ix2 (0 : Fin 1) c)) = fun c => B2 (ix2 (0 : Fin 1) c) := funext h4
  rw [e0, e1, e2, e3, e4]

/-! ## The windows' blocks -/

theorem zero_offsets : (![0, 0] : Fin 2 → Nat) = fun _ => 0 := funext fun a => by fin_cases a <;> rfl

/-- The printed index maps, decided over the 10 grid points: the features' window and the output's window are at
    block row `t`, block column `0`; the four parameter windows are at block `(0, 0)` at every point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## One point's block is a block of the head -/

set_option maxHeartbeats 4000000 in
/-- WHAT ONE POINT COMPUTES: from the blocks point `t` stages of ANY five arrays, the body's stored value (cut to
    the output's block, which is whole here) is block `t` of the head of those arrays. An element of a block sits
    in its array, on each axis, at block index × block size + its coordinate inside the block. -/
theorem block_eq (t : Fin cfg0.N) (A0 : S100000x64.Idx → Elt Ideal .f32) (A1 : S64x64.Idx → Elt Ideal .f32)
    (A2 : S1x64.Idx → Elt Ideal .f32) (A3 : S64x40.Idx → Elt Ideal .f32) (A4 : S1x40.Idx → Elt Ideal .f32) :
    (cfg0.win 5).cut (grid0.coords t)
        (k0_pay1 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (headK A0 A1 A2 A3 A4) := by
  obtain ⟨e00, e01, e10, e11, e20, e21, e30, e31, e40, e41, e50, e51⟩ := index_facts t
  have ht : t.val < 10 := lt_of_lt_of_eq t.isLt N_0
  funext y
  obtain ⟨p, q, rfl⟩ : ∃ (p : Fin 10000) (q : Fin 40), y = ix2 p q :=
    ⟨⟨(y 0).val, (y 0).isLt⟩, ⟨(y 1).val, (y 1).isLt⟩, funext fun a => by
      match a with
      | ⟨0, _⟩ => rfl
      | ⟨1, _⟩ => rfl⟩
  have hp : p.val < 10000 := p.isLt
  show k0_pay1 (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (ix2 p q)
      = headK A0 A1 A2 A3 A4 (((cfg0.win 5).blk t).view.emb (ix2 p q))
  have hemb : ((cfg0.win 5).blk t).view.emb (ix2 p q) = ix2 (⟨t.val * 10000 + p.val, by omega⟩ : Fin 100000) q := by
    funext a; apply Fin.ext
    match a with
    | ⟨0, _⟩ => show win0_5.index t (0 : Fin 2) * 10000 + 1 * p.val = t.val * 10000 + p.val; omega
    | ⟨1, _⟩ => show win0_5.index t (1 : Fin 2) * 40 + 1 * q.val = q.val; omega
  rw [hemb]
  refine point_eq A0 A1 A2 A3 A4 (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) p q ⟨t.val * 10000 + p.val, by omega⟩ ?_ ?_ ?_ ?_ ?_
  · intro j
    show A0 (((cfg0.win 0).blk t).view.emb (ix2 p j)) = A0 (ix2 (⟨t.val * 10000 + p.val, by omega⟩ : Fin 100000) j)
    refine congrArg A0 (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * j.val = j.val; omega
  · intro j k
    show A1 (((cfg0.win 1).blk t).view.emb (ix2 j k)) = A1 (ix2 j k)
    refine congrArg A1 (funext fun a => Fin.ext ?_)
    match a with
    | ⟨0, _⟩ => show win0_1.index t (0 : Fin 2) * 64 + 1 * j.val = j.val; omega
    | ⟨1, _⟩ => show win0_1.index t (1 : Fin 2) * 64 + 1 * k.val = k.val; omega
  · intro k
    show A2 (((cfg0.win 2).blk t).view.emb (ix2 (0 : Fin 1) k)) = A2 (ix2 (0 : Fin 1) k)
    refine congrArg A2 (funext fun a => Fin.ext ?_)
    match a with
    | ⟨0, _⟩ => show win0_2.index t (0 : Fin 2) * 1 + 1 * 0 = 0; omega
    | ⟨1, _⟩ => show win0_2.index t (1 : Fin 2) * 64 + 1 * k.val = k.val; omega
  · intro k c'
    show A3 (((cfg0.win 3).blk t).view.emb (ix2 k c')) = A3 (ix2 k c')
    refine congrArg A3 (funext fun a => Fin.ext ?_)
    match a with
    | ⟨0, _⟩ => show win0_3.index t (0 : Fin 2) * 64 + 1 * k.val = k.val; omega
    | ⟨1, _⟩ => show win0_3.index t (1 : Fin 2) * 40 + 1 * c'.val = c'.val; omega
  · intro c'
    show A4 (((cfg0.win 4).blk t).view.emb (ix2 (0 : Fin 1) c')) = A4 (ix2 (0 : Fin 1) c')
    refine congrArg A4 (funext fun a => Fin.ext ?_)
    match a with
    | ⟨0, _⟩ => show win0_4.index t (0 : Fin 2) * 1 + 1 * 0 = 0; omega
    | ⟨1, _⟩ => show win0_4.index t (1 : Fin 2) * 40 + 1 * c'.val = c'.val; omega

/-! ## The blocks tile the output -/

/-- An index of the output array is in point `t`'s block iff each coordinate is in the block's range on its axis. -/
theorem mem_blk (t : Fin cfg0.N) (i : S100000x40.Idx) :
    i ∈ ((cfg0.win 5).blk t).view.set ↔ ∀ a : Fin 2, win0_5.index t a * S10000x40.size a ≤ (i a).val
      ∧ (i a).val < win0_5.index t a * S10000x40.size a + S10000x40.size a := by
  show i ∈ ((View.whole main_v71).slice (win0_5.rect t)).set ↔ _
  rw [View.set_slice_whole, Rect.mem_set_unit]
  exact Iff.rfl

/-- Every output index is in the block of the point its row falls to: row `r` belongs to point `r / 10000`. -/
theorem cover (i : S100000x40.Idx) :
    ∃ t : Fin cfg0.N, (cfg0.win 5).flush t = true ∧ i ∈ ((cfg0.win 5).blk t).view.set := by
  have hi0 : (i 0).val < 100000 := (i 0).isLt
  have hi1 : (i 1).val < 40 := (i 1).isLt
  have hN : grid0.N = 10 := N_0
  have hlt : (i 0).val / 10000 < grid0.N := by omega
  obtain ⟨-, -, -, -, -, -, -, -, -, -, e50, e51⟩ := index_facts ⟨(i 0).val / 10000, hlt⟩
  have e50' : win0_5.index ⟨(i 0).val / 10000, hlt⟩ (0 : Fin 2) = (i 0).val / 10000 := e50
  refine ⟨⟨(i 0).val / 10000, hlt⟩, flush0_5 _, ?_⟩
  rw [mem_blk]
  intro a
  match a with
  | ⟨0, _⟩ =>
    show win0_5.index ⟨(i 0).val / 10000, hlt⟩ (0 : Fin 2) * 10000 ≤ (i 0).val
      ∧ (i 0).val < win0_5.index ⟨(i 0).val / 10000, hlt⟩ (0 : Fin 2) * 10000 + 10000
    omega
  | ⟨1, _⟩ =>
    show win0_5.index ⟨(i 0).val / 10000, hlt⟩ (1 : Fin 2) * 40 ≤ (i 1).val
      ∧ (i 1).val < win0_5.index ⟨(i 0).val / 10000, hlt⟩ (1 : Fin 2) * 40 + 40
    omega

end Cert.SgcHead.KernelBlocks

end
-- ==== Proof.KernelArray.lean ====
/-
  From what each grid point writes back to the whole output array.

  What point `t` writes back is the body's stored value on the blocks it staged, and those are blocks of the arrays
  as the region finds them; by the block lemma that is block `t` of the head of those arrays, and the 10 blocks tile
  the output, so the output array ends holding the head. Of the arrays the region finds, the two weight matrices are
  arguments as launched and the two one-row bias arrays are host reshapes `[n] → [1, n]` of the bias vectors as
  launched; the propagated features are left as the region finds them.
-/
import proofs.«179937_j5643587027282_1_alg».proof.Proof.KernelBlocks
import Idealize.ShloMosaic.Lib.StableHlo.Run

set_option maxRecDepth 16384

noncomputable section

namespace Cert.SgcHead.KernelArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.SgcHead Cert.SgcHead.KernelBlocks

variable (m : (ℓ : Loc nD τ sig) → Buf (Elt Ideal) ℓ) (ρ : Dev nD → PrngReg)

/-! ## What each point writes back, and the final array -/

/-- The head of the five arrays the windows stage, as the region finds them on core `c`. -/
abbrev arrayHead (c : Dev nD) : S100000x40.Idx → Elt Ideal .f32 :=
  headK (V m c (Pipeline.arrRef spec0 0)) (V m c (Pipeline.arrRef spec0 1)) (V m c (Pipeline.arrRef spec0 2))
    (V m c (Pipeline.arrRef spec0 3)) (V m c (Pipeline.arrRef spec0 4))

/-- WHAT POINT `t` WRITES BACK is block `t` of the head of the arrays as the region finds them. -/
theorem flushed_eq (c : Dev nD) (t : Fin cfg0.N) :
    (dats m 0 c).flushed 5 t = ((cfg0.win 5).blk t).view.read (Elt Ideal) (arrayHead m c) := by
  rw [Cert.KernelIdeal.Value.flushed5]
  unfold out0_5
  rw [View.canon_unit_zero zero_offsets]
  simp only [View.ld_unit_zero (S := S10000x64) zero_offsets, View.ld_unit_zero (S := S64x64) zero_offsets,
    View.ld_unit_zero (S := S1x64) zero_offsets, View.ld_unit_zero (S := S64x40) zero_offsets,
    View.ld_unit_zero (S := S1x40) zero_offsets]
  exact block_eq t (V m c (Pipeline.arrRef spec0 0)) (V m c (Pipeline.arrRef spec0 1)) (V m c (Pipeline.arrRef spec0 2))
    (V m c (Pipeline.arrRef spec0 3)) (V m c (Pipeline.arrRef spec0 4))

/-- THE OUTPUT ARRAY after the run is the head of the arrays as the region finds them. -/
theorem final (c : Dev nD) : (dats m 0 c).arrAt 5 cfg0.N = arrayHead m c :=
  (dats m 0 c).arrAt_eq_of_cover 5 (arrayHead m c) (fun t _ => flushed_eq m c t) cover

/-! ## The arrays as the region finds them -/

/-- The first bias row as the region finds it: the host reshape `[64] → [1, 64]` of the bias vector as launched. -/
theorem V_bias1 (c : Dev nD) :
    (V m c main_v69 : S1x64.Idx → Elt Ideal .f32) = shapeCast S1x64 (m ((c : Thread nD τ).loc main_arg3)) shapeCasts_S64_S1x64 := by
  dsimp only [V]
  simp only [hostOps0, hostOps0_1, hostOps0_2, List.flatten_cons, List.flatten_nil, List.append_nil, List.cons_append,
    List.nil_append]
  after_results_simp
  rfl

/-- The second bias row as the region finds it: the host reshape `[40] → [1, 40]` of the bias vector as launched. -/
theorem V_bias2 (c : Dev nD) :
    (V m c main_v70 : S1x40.Idx → Elt Ideal .f32) = shapeCast S1x40 (m ((c : Thread nD τ).loc main_arg5)) shapeCasts_S40_S1x40 := by
  dsimp only [V]
  simp only [hostOps0, hostOps0_1, hostOps0_2, List.flatten_cons, List.flatten_nil, List.append_nil, List.cons_append,
    List.nil_append]
  after_results_simp
  rfl

/-- The head of the arrays as the region finds them is `headOf` of the propagated features as the region finds
    them and of the four parameter arguments as launched. -/
theorem arrayHead_eq (c : Dev nD) :
    arrayHead m c = headOf (V m c main_v68) (m ((c : Thread nD τ).loc main_arg2)) (m ((c : Thread nD τ).loc main_arg3))
      (m ((c : Thread nD τ).loc main_arg4)) (m ((c : Thread nD τ).loc main_arg5)) := by
  have e1 : V m c (Pipeline.arrRef spec0 1) = m ((c : Thread nD τ).loc main_arg2) := V_main_arg2 m c
  have e2 : (V m c (Pipeline.arrRef spec0 2) : S1x64.Idx → Elt Ideal .f32) = _ := V_bias1 m c
  have e3 : V m c (Pipeline.arrRef spec0 3) = m ((c : Thread nD τ).loc main_arg4) := V_main_arg4 m c
  have e4 : (V m c (Pipeline.arrRef spec0 4) : S1x40.Idx → Elt Ideal .f32) = _ := V_bias2 m c
  show headK (V m c (Pipeline.arrRef spec0 0)) (V m c (Pipeline.arrRef spec0 1)) (V m c (Pipeline.arrRef spec0 2))
    (V m c (Pipeline.arrRef spec0 3)) (V m c (Pipeline.arrRef spec0 4)) = _
  rw [e1, e2, e3, e4]
  exact headK_reshape _ _ _ _ _

/-! ## The run -/

/-- The kernel's run: every weakly fair execution terminates with the output array at the head of the propagated
    features as the region finds them and of the four parameter arguments, and with every argument unchanged. -/
theorem run : θ_run defs (onTc (τ := τ) (main (F := Ideal))) ⟨m, fun _ => 0, ρ⟩ fun r => ∀ c : Dev nD,
      r.2.mem ((c : Thread nD τ).loc main_v71)
        = headOf (V m c main_v68) (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1.trans (final m c)).trans (arrayHead_eq m c), (h c).2⟩)
    (Cert.KernelIdeal.Value.run_blocks m ρ)

end Cert.SgcHead.KernelArray

end
-- ==== Proof.RefOps.lean ====
import proofs.«179937_j5643587027282_1_alg».proof.Proof.Gen.ReferenceIdeal
import Idealize.ShloMosaic.Lib.StableHlo.Run

noncomputable section

namespace Cert.SgcHead.RefOps

open Cert.ReferenceIdeal Cert.ReferenceIdeal.Gen Idealize.ShloMosaic Idealize.ShloMosaic.TcCoe Idealize.SL.Sem Idealize.ShloMosaic.StableHlo

variable {F : FTy → Type} [FloatOps F]

/-- The first 88 operations of the reference's @main, in order: the graph propagation, ending with the buffer of the propagated features. -/
abbrev propOps : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) main_call0.v0 id,
    TRef.unary main_call0.v0 main_call0.v1 (broadcastInDim S100000 ![] bcast_S_S100000),
    TRef.ternary (TRef.of (T := ⟨S100000, .i1⟩) main_v12) (TRef.of (T := ⟨S100000, .f32⟩) main_v13) main_call0.v1 main_call0.v2 select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    unary main_v29 main_v30 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_arg0 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x64 ![0, 1] bcast_S1700000x1_S1700000x64_0_1 : (⟨S1700000x1, .f32⟩ : BufTy).Contents (Elt F) → (⟨S1700000x64, .f32⟩ : BufTy).Contents (Elt F)),
    binary main_v38 main_v37 main_v39 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v40 (broadcastInDim S100000x64 ![] bcast_S_S100000x64 : (⟨S_, .f32⟩ : BufTy).Contents (Elt F) → (⟨S100000x64, .f32⟩ : BufTy).Contents (Elt F)),
    unary main_v6 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_v29 main_v43 (broadcastInDim S1700000x1 ![0] bcast_S1700000_S1700000x1_0 : (⟨S1700000, .f32⟩ : BufTy).Contents (Elt F) → (⟨S1700000x1, .f32⟩ : BufTy).Contents (Elt F)),
    nullary main_c_9 (constantI S_ 32 0#32),
    unary main_c_9 main_v44 (broadcastInDim S1700000 ![] bcast_S_S1700000 : (⟨S_, .i32⟩ : BufTy).Contents (Elt F) → (⟨S1700000, .i32⟩ : BufTy).Contents (Elt F)),
    binary main_v3 main_v44 main_v45 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v46 (broadcastInDim S1700000 ![] bcast_S_S1700000 : (⟨S_, .i32⟩ : BufTy).Contents (Elt F) → (⟨S1700000, .i32⟩ : BufTy).Contents (Elt F)),
    binary main_v3 main_v46 main_v47 (addi : (⟨S1700000, .i32⟩ : BufTy).Contents (Elt F) → (⟨S1700000, .i32⟩ : BufTy).Contents (Elt F) → (⟨S1700000, .i32⟩ : BufTy).Contents (Elt F)),
    ternary main_v45 main_v47 main_v3 main_v48 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v48 main_v49 (broadcastInDim S1700000x1 ![0] bcast_S1700000_S1700000x1_0 : (⟨S1700000, .i32⟩ : BufTy).Contents (Elt F) → (⟨S1700000x1, .i32⟩ : BufTy).Contents (Elt F)),
    binary main_v42 main_v49 main_v50 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v43 main_v51 (broadcastInDim S1700000x64 ![0, 1] bcast_S1700000x1_S1700000x64_0_1 : (⟨S1700000x1, .f32⟩ : BufTy).Contents (Elt F) → (⟨S1700000x64, .f32⟩ : BufTy).Contents (Elt F)),
    binary main_v51 main_v50 main_v52 (mulf : (⟨S1700000x64, .f32⟩ : BufTy).Contents (Elt F) → (⟨S1700000x64, .f32⟩ : BufTy).Contents (Elt F) → (⟨S1700000x64, .f32⟩ : BufTy).Contents (Elt F)),
    nullary main_cst_11 (constant S_ .f32 0x00000000#32),
    unary main_cst_11 main_v53 (broadcastInDim S100000x64 ![] bcast_S_S100000x64 : (⟨S_, .f32⟩ : BufTy).Contents (Elt F) → (⟨S100000x64, .f32⟩ : BufTy).Contents (Elt F)),
    unary main_v6 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    nullary main_c_12 (constantI S_ 32 0#32),
    unary main_c_12 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v55 main_v62 main_v63 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v56 main_v64 (broadcastInDim S1700000x64 ![0, 1] bcast_S1700000x1_S1700000x64_0_1 : (⟨S1700000x1, .f32⟩ : BufTy).Contents (Elt F) → (⟨S1700000x64, .f32⟩ : BufTy).Contents (Elt F)),
    binary main_v64 main_v63 main_v65 (mulf : (⟨S1700000x64, .f32⟩ : BufTy).Contents (Elt F) → (⟨S1700000x64, .f32⟩ : BufTy).Contents (Elt F) → (⟨S1700000x64, .f32⟩ : BufTy).Contents (Elt F)),
    nullary main_cst_14 (constant S_ .f32 0x00000000#32),
    unary main_cst_14 main_v66 (broadcastInDim S100000x64 ![] bcast_S_S100000x64 : (⟨S_, .f32⟩ : BufTy).Contents (Elt F) → (⟨S100000x64, .f32⟩ : BufTy).Contents (Elt F)),
    unary main_v6 main_v67 (broadcastInDim S1700000x1 ![0] bcast_S1700000_S1700000x1_0 : (⟨S1700000, .i32⟩ : BufTy).Contents (Elt F) → (⟨S1700000x1, .i32⟩ : BufTy).Contents (Elt F)),
    ternary main_v66 main_v67 main_v65 main_v68 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The last 8 operations of the reference's @main, in order: the two dense layers applied to the propagated features. -/
abbrev tailOps : List (HloOp τ sig (Elt F)) :=
  [ binary main_v68 main_arg2 main_v69 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v70 (broadcastInDim S1x64 ![1] bcast_S64_S1x64_1 : (⟨S64, .f32⟩ : BufTy).Contents (Elt F) → (⟨S1x64, .f32⟩ : BufTy).Contents (Elt F)),
    unary main_v70 main_v71 (broadcastInDim S100000x64 ![0, 1] bcast_S1x64_S100000x64_0_1 : (⟨S1x64, .f32⟩ : BufTy).Contents (Elt F) → (⟨S100000x64, .f32⟩ : BufTy).Contents (Elt F)),
    binary main_v69 main_v71 main_v72 (addf : (⟨S100000x64, .f32⟩ : BufTy).Contents (Elt F) → (⟨S100000x64, .f32⟩ : BufTy).Contents (Elt F) → (⟨S100000x64, .f32⟩ : BufTy).Contents (Elt F)),
    binary main_v72 main_arg4 main_v73 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg5 main_v74 (broadcastInDim S1x40 ![1] bcast_S40_S1x40_1 : (⟨S40, .f32⟩ : BufTy).Contents (Elt F) → (⟨S1x40, .f32⟩ : BufTy).Contents (Elt F)),
    unary main_v74 main_v75 (broadcastInDim S100000x40 ![0, 1] bcast_S1x40_S100000x40_0_1 : (⟨S1x40, .f32⟩ : BufTy).Contents (Elt F) → (⟨S100000x40, .f32⟩ : BufTy).Contents (Elt F)),
    binary main_v73 main_v75 main_v76 (addf : (⟨S100000x40, .f32⟩ : BufTy).Contents (Elt F) → (⟨S100000x40, .f32⟩ : BufTy).Contents (Elt F) → (⟨S100000x40, .f32⟩ : BufTy).Contents (Elt F)) ]

end Cert.SgcHead.RefOps

end
-- ==== Proof.RefRun.lean ====
/-
  The reference program's run, read back.

  The reference's @main is a straight line of host operations: 88 that propagate the node features along the
  graph's edges (three rounds of gather, scale, scatter-add, after the degree normalisation) and then 8 that apply
  the two dense layers. Every weakly fair execution of such a line terminates with each buffer at the fold of the
  operations' results over the launch contents. Folding over a concatenation is folding over its parts in turn, so
  the result buffer is the last eight operations applied to whatever the first 88 left — and the propagated
  features are never opened here: they stay "what the first 88 operations leave in their last buffer".
  No operation writes an argument, so the arguments end as launched.
-/
import proofs.«179937_j5643587027282_1_alg».proof.Proof.RefOps
import Idealize.ShloMosaic.Lib.StableHlo.Run
import Idealize.ShloMosaic.Lib.Pipeline.Frame

noncomputable section

namespace Cert.SgcHead.RefRun

open Cert.ReferenceIdeal Cert.ReferenceIdeal.Gen Idealize.ShloMosaic Idealize.ShloMosaic.TcCoe Idealize.SL.Sem
open Idealize.ShloMosaic.StableHlo Cert.SgcHead.RefOps

variable {F : FTy → Type} [FloatOps F]

/-! ## The program is the line of its operations -/

set_option maxRecDepth 8192 in
set_option maxHeartbeats 4000000 in
/-- @main is its 88 + 8 operations run in order. -/
theorem main_eq (c : Dev nD) : main (F := F) c = seq (propOps ++ tailOps) := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (propOps ++ tailOps : List (HloOp τ sig (Elt F))).Forall fun op => op.bufs ⊆ tcRefs τ sig := by
  simp only [propOps, tailOps, List.cons_append, List.nil_append, List.Forall, nullary_bufs_sub, unary_bufs_sub,
    binary_bufs_sub, ternary_bufs_sub, reshape_bufs_sub, and_self]

set_option maxRecDepth 8192 in
/-- Every operation determines its results. -/
theorem ops_fresh : (propOps ++ tailOps : List (HloOp τ sig (Elt F))).Forall fun op => op.fresh = ∅ := by
  simp only [propOps, tailOps, List.cons_append, List.nil_append, List.Forall]
  repeat' constructor

/-! ## No operation writes an argument -/

/-- A buffer that no operation of a literal line writes keeps its contents: the line's written buffers are read off
    the operations, and each differs from the buffer in question. -/
local macro "not_written" : tactic =>
  `(tactic| (refine after_of_forall_not_mem _ _ (List.forall_iff_forall_mem.mp ?_)
             simp only [propOps, tailOps, List.Forall, nullary_writes, unary_writes, binary_writes, ternary_writes,
               quaternary_writes, reshape_writes, binaryIndexed_writes, Finset.mem_singleton]
             repeat' apply And.intro
             all_goals exact devRef_ne_of_ne (by decide)))

theorem prop_arg0 (V : Valuation τ sig (Elt F)) :
    after propOps V (Proc.devRef .tc main_arg0) = V (Proc.devRef .tc main_arg0) := by not_written
theorem prop_arg1 (V : Valuation τ sig (Elt F)) :
    after propOps V (Proc.devRef .tc main_arg1) = V (Proc.devRef .tc main_arg1) := by not_written
theorem prop_arg2 (V : Valuation τ sig (Elt F)) :
    after propOps V (Proc.devRef .tc main_arg2) = V (Proc.devRef .tc main_arg2) := by not_written
theorem prop_arg3 (V : Valuation τ sig (Elt F)) :
    after propOps V (Proc.devRef .tc main_arg3) = V (Proc.devRef .tc main_arg3) := by not_written
theorem prop_arg4 (V : Valuation τ sig (Elt F)) :
    after propOps V (Proc.devRef .tc main_arg4) = V (Proc.devRef .tc main_arg4) := by not_written
theorem prop_arg5 (V : Valuation τ sig (Elt F)) :
    after propOps V (Proc.devRef .tc main_arg5) = V (Proc.devRef .tc main_arg5) := by not_written
theorem tail_arg0 (V : Valuation τ sig (Elt F)) :
    after tailOps V (Proc.devRef .tc main_arg0) = V (Proc.devRef .tc main_arg0) := by not_written
theorem tail_arg1 (V : Valuation τ sig (Elt F)) :
    after tailOps V (Proc.devRef .tc main_arg1) = V (Proc.devRef .tc main_arg1) := by not_written
theorem tail_arg2 (V : Valuation τ sig (Elt F)) :
    after tailOps V (Proc.devRef .tc main_arg2) = V (Proc.devRef .tc main_arg2) := by not_written
theorem tail_arg3 (V : Valuation τ sig (Elt F)) :
    after tailOps V (Proc.devRef .tc main_arg3) = V (Proc.devRef .tc main_arg3) := by not_written
theorem tail_arg4 (V : Valuation τ sig (Elt F)) :
    after tailOps V (Proc.devRef .tc main_arg4) = V (Proc.devRef .tc main_arg4) := by not_written
theorem tail_arg5 (V : Valuation τ sig (Elt F)) :
    after tailOps V (Proc.devRef .tc main_arg5) = V (Proc.devRef .tc main_arg5) := by not_written

/-! ## The last eight operations as one function -/

/-- The two dense layers as the reference prints them: a `dot_general` with the first weight matrix, the first bias
    broadcast `[64] → [1, 64] → [100000, 64]` and added, a `dot_general` with the second weight matrix, the second
    bias broadcast `[40] → [1, 40] → [100000, 40]` and added. -/
def denseTail (P : (⟨S100000x64, .f32⟩ : BufTy).Contents (Elt F)) (w1 : (⟨S64x64, .f32⟩ : BufTy).Contents (Elt F)) (b1 : (⟨S64, .f32⟩ : BufTy).Contents (Elt F))
    (w2 : (⟨S64x40, .f32⟩ : BufTy).Contents (Elt F)) (b2 : (⟨S40, .f32⟩ : BufTy).Contents (Elt F)) : (⟨S100000x40, .f32⟩ : BufTy).Contents (Elt F) :=
  addf (Host.dotGeneral dot_S100000x64_S64x40_S100000x40_1_0_0_1_n_n none
      (addf (Host.dotGeneral dot_S100000x64_S64x64_S100000x64_1_0_0_1_n_n none P w1)
        (broadcastInDim S100000x64 ![0, 1] bcast_S1x64_S100000x64_0_1 (broadcastInDim S1x64 ![1] bcast_S64_S1x64_1 b1)))
      w2)
    (broadcastInDim S100000x40 ![0, 1] bcast_S1x40_S100000x40_0_1 (broadcastInDim S1x40 ![1] bcast_S40_S1x40_1 b2))

/-- From any contents `W`, the last eight operations leave in the result buffer `denseTail` of `W` at the buffer
    of the propagated features and at the four parameter arguments. -/
theorem tail_after (W : Valuation τ sig (Elt F)) :
    after tailOps W (Proc.devRef .tc main_v76)
      = denseTail (F := F) (W (Proc.devRef .tc main_v68)) (W (Proc.devRef .tc main_arg2)) (W (Proc.devRef .tc main_arg3))
          (W (Proc.devRef .tc main_arg4)) (W (Proc.devRef .tc main_arg5)) := by
  dsimp only [tailOps]
  after_results
  rfl

/-! ## The run -/

/-- On every device, for any float values, from any memory with zero counters: every weakly fair execution of the
    reference's @main terminates with the result at `denseTail` of the propagated features — what the first 88
    operations leave in their last buffer, from the launch contents — and of the four parameter arguments, and with
    every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76)
        = denseTail (F := F) (after propOps (launchContents m c) (Proc.devRef .tc main_v68))
            (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v76).trans (by
        rw [StableHlo.after_append, tail_after, prop_arg2, prop_arg3, prop_arg4, prop_arg5]),
      (h c main_arg0).trans (by rw [StableHlo.after_append, tail_arg0, prop_arg0]),
      (h c main_arg1).trans (by rw [StableHlo.after_append, tail_arg1, prop_arg1]),
      (h c main_arg2).trans (by rw [StableHlo.after_append, tail_arg2, prop_arg2]),
      (h c main_arg3).trans (by rw [StableHlo.after_append, tail_arg3, prop_arg3]),
      (h c main_arg4).trans (by rw [StableHlo.after_append, tail_arg4, prop_arg4]),
      (h c main_arg5).trans (by rw [StableHlo.after_append, tail_arg5, prop_arg5])⟩)
    (run_seq scopedRefs_eq scopedSems_eq defs main (fun _ => propOps ++ tailOps) main_eq (fun _ => ops_sub) m ρ
      (fun _ => List.forall_iff_forall_mem.mp ops_fresh))

end Cert.SgcHead.RefRun

end
-- ==== Proof.RefRows.lean ====
/-
  The reference's two dense layers, entry by entry.

  On the host a `dot_general` over one contracted axis is, at the extended reals, the plain sum over that axis of
  left `(r, k)` times right `(k, c)`, and a bias vector broadcast `[N] → [1, N] → [M, N]` reads, at `(r, k)`, the
  vector at `k`. So the reference's last eight operations compute, at `(r, c)`, exactly `rowOut` of row `r` of the
  propagated features: the same expression, in the same grouping, as one grid point of the kernel.
-/
import proofs.«179937_j5643587027282_1_alg».proof.Proof.RefRun
import proofs.«179937_j5643587027282_1_alg».proof.Proof.DenseRow
import proofs.«179937_j5643587027282_1_alg».proof.Proof.LibPlainDot
import proofs.«179937_j5643587027282_1_alg».proof.Proof.LibDenseLayer
import Idealize.ShloMosaic.Lib.Pipeline.Value
import Idealize.ShloMosaic.Lib.ValueIdx
import Idealize.ShloMosaic.PureOps.Ideal.Laws

noncomputable section

namespace Cert.SgcHead.RefRows

open Cert.ReferenceIdeal Cert.ReferenceIdeal.Gen Idealize.ShloMosaic Idealize.ShloMosaic.ValueIdx Cert.SgcHead.RefRun Cert.Lib.DenseLayer

/-! ## The reference's two contraction records are plain matrix products -/

theorem r1_l0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
theorem r1_l1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem r1_r0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem r1_r1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

theorem r2_l0 (i : S100000x40.Idx) (q : dot_S100000x64_S64x40_S100000x40_1_0_0_1_n_n.contr.Idx) : (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide),
    dif_pos (show (0 : Fin S100000x64.rank) ∈ dot_S100000x64_S64x40_S100000x40_1_0_0_1_n_n.lhsNonContracting by decide)]
  rfl
theorem r2_l1 (i : S100000x40.Idx) (q : dot_S100000x64_S64x40_S100000x40_1_0_0_1_n_n.contr.Idx) : (dot_S100000x64_S64x40_S100000x40_1_0_0_1_n_n.lhsIdx i q 1).val = (q ⟨0, by decide⟩).val :=
  dot_S100000x64_S64x40_S100000x40_1_0_0_1_n_n.lhsIdx_val_of_single rfl i q
theorem r2_r0 (i : S100000x40.Idx) (q : dot_S100000x64_S64x40_S100000x40_1_0_0_1_n_n.contr.Idx) : (dot_S100000x64_S64x40_S100000x40_1_0_0_1_n_n.rhsIdx i q 0).val = (q ⟨0, by decide⟩).val :=
  dot_S100000x64_S64x40_S100000x40_1_0_0_1_n_n.rhsIdx_val_of_single rfl i q
theorem r2_r1 (i : S100000x40.Idx) (q : dot_S100000x64_S64x40_S100000x40_1_0_0_1_n_n.contr.Idx) : (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide),
    dif_pos (show (1 : Fin S64x40.rank) ∈ dot_S100000x64_S64x40_S100000x40_1_0_0_1_n_n.rhsNonContracting by decide)]
  rfl

/-! ## The last eight operations are the head -/

/-- THE REFERENCE'S TAIL IS THE HEAD: at the extended reals the reference's last eight operations, applied to the
    propagated features and the four parameter arrays, are `headOf` of them, entry by entry. -/
theorem denseTail_eq (P : (⟨2, ![100000, 64]⟩ : Shape).Idx → EReal) (w1 : (⟨2, ![64, 64]⟩ : Shape).Idx → EReal)
    (b1 : (⟨1, ![64]⟩ : Shape).Idx → EReal) (w2 : (⟨2, ![64, 40]⟩ : Shape).Idx → EReal)
    (b2 : (⟨1, ![40]⟩ : Shape).Idx → EReal) :
    denseTail (F := Ideal) P w1 b1 w2 b2 = headOf P w1 b1 w2 b2 := by
  funext i
  obtain ⟨r, c, rfl⟩ : ∃ (r : Fin 100000) (c : Fin 40), i = ix2 r c := ⟨i 0, i 1, eq_ix2 i⟩
  rw [headOf_apply]
  unfold denseTail rowOut hidden
  rw [addf_apply, bias_apply (by decide)]
  simp only [Host.dotGeneral]
  rw [Ideal.dotGeneral_apply, Cert.Lib.PlainDot.sum_rows_cols dot_S100000x64_S64x40_S100000x40_1_0_0_1_n_n rfl rfl r2_l0 r2_l1 r2_r0 r2_r1]
  refine congrArg (· + b2 (ix1 c)) (Finset.sum_congr rfl fun k _ => ?_)
  rw [addf_apply, bias_apply (by decide), Ideal.dotGeneral_apply,
    Cert.Lib.PlainDot.sum_rows_cols dot_S100000x64_S64x64_S100000x64_1_0_0_1_n_n rfl rfl r1_l0 r1_l1 r1_r0 r1_r1]

end Cert.SgcHead.RefRows

end
-- ==== Proof.LibCat2.lean ====
/-
  A two-piece `concatenate` whose pieces a rewriting pass can reach.

  The library's `concatenate` takes its pieces as a list of (shape, array) pairs together with a fact about that
  list's shapes. The fact's TYPE mentions the list, so a rewriting pass that keeps terms well typed argument by
  argument must leave the list alone: unfolding a line of host operations that holds a `stablehlo.concatenate`
  (for example jax's `jnp.concatenate([edge_index[0], arange(n)])`) stops at its operands, and whatever they read —
  an argument buffer — stays hidden inside them. `cat2` is the same join with the fact stated over the two shapes
  only, so the two arrays are ordinary arguments; add `concatenate_pair` to the set of rewriting lemmas that unfolds
  the line (it holds by `rfl`) and the pass goes on into both pieces. Imports only the Idealize library.
-/
import Idealize.ShloMosaic.PureOps.ShapeOps

noncomputable section

namespace Cert.Lib.Cat2

open Idealize.ShloMosaic

/-- Two arrays joined along an axis, with the fact about the shapes kept apart from the arrays: the library's
    `concatenate` takes the pieces as a list of (shape, array) pairs and a fact about that list's shapes, so the fact
    mentions the arrays' list; here it mentions the two shapes only, and the arrays are ordinary arguments. -/
def cat2 {α : Type} {t : Shape} {a : Fin t.rank} {s₁ s₂ : Shape} (h : Shape.Concatenates [s₁, s₂] t a)
    (x₁ : s₁.Idx → α) (x₂ : s₂.Idx → α) : t.Idx → α :=
  concatenate t a [⟨s₁, x₁⟩, ⟨s₂, x₂⟩] h

/-- A `concatenate` of two pieces is `cat2` of them. -/
theorem concatenate_pair {α : Type} {t : Shape} {a : Fin t.rank} {s₁ s₂ : Shape} (h : Shape.Concatenates [s₁, s₂] t a)
    (x₁ : s₁.Idx → α) (x₂ : s₂.Idx → α) : concatenate t a [⟨s₁, x₁⟩, ⟨s₂, x₂⟩] h = cat2 h x₁ x₂ := rfl

end Cert.Lib.Cat2

end
-- ==== Proof.Propagate.lean ====
/-
  Both programs propagate the features in the same way.

  Before the dense head, both programs run the same 88 host operations on the node features and the edge list:
  the self-loops are appended to the edges, the degrees are counted by a scatter-add of ones, their inverse square
  roots (zero where the degree is zero) are gathered at both ends of every edge and multiplied into the edge's
  weight, and then three times the features are gathered at the edges' sources, scaled by the weights and
  scatter-added at the targets. Operation by operation the two printed lines are the same text over each
  program's own buffers; so from contents that agree on the features and on the edge list, the buffer of the
  propagated features ends the same in both. Nothing about gather or scatter-add is used: the two composed terms
  are the same term.
-/
import proofs.«179937_j5643587027282_1_alg».proof.Proof.Gen.KernelIdeal.Frame
import proofs.«179937_j5643587027282_1_alg».proof.Proof.RefOps
import proofs.«179937_j5643587027282_1_alg».proof.Proof.LibCat2
import Idealize.ShloMosaic.Lib.StableHlo.Run
import Idealize.ShloMosaic.PureOps.Ideal

noncomputable section

namespace Cert.SgcHead.Propagate

open Idealize.ShloMosaic Idealize.ShloMosaic.TcCoe Idealize.SL.Sem Idealize.ShloMosaic.StableHlo Cert.Lib.Cat2

/-! ## The two propagation lines leave the same array -/

set_option maxRecDepth 16384 in
set_option maxHeartbeats 40000000 in
/-- From contents `VK` of the kernel's buffers and `VR` of the reference's that agree on the features and on the edge
    list, the kernel's host operations before its region leave in the features' buffer what the reference's first
    88 operations leave in theirs: both sides are unfolded to the composed term of their operations — each
    operation's result at its own buffer its function of its operands, at any other buffer what was there — down to
    the two valuations at the features and at the edge list, and there the two terms are one. -/
theorem after_eq (VK : Valuation Cert.KernelIdeal.τ Cert.KernelIdeal.sig (Elt Ideal)) (VR : Valuation Cert.ReferenceIdeal.τ Cert.ReferenceIdeal.sig (Elt Ideal))
    (h0 : VR (Proc.devRef .tc Cert.ReferenceIdeal.main_arg0) = VK (Proc.devRef .tc Cert.KernelIdeal.main_arg0))
    (h1 : VR (Proc.devRef .tc Cert.ReferenceIdeal.main_arg1) = VK (Proc.devRef .tc Cert.KernelIdeal.main_arg1)) :
    after (List.flatten [Cert.KernelIdeal.Gen.hostOps0 (F := Ideal), Cert.KernelIdeal.Gen.hostOps0_1 (F := Ideal), Cert.KernelIdeal.Gen.hostOps0_2 (F := Ideal)]) VK
        (Proc.devRef .tc Cert.KernelIdeal.main_v68)
      = after (Cert.SgcHead.RefOps.propOps (F := Ideal)) VR (Proc.devRef .tc Cert.ReferenceIdeal.main_v68) := by
  simp only [Cert.KernelIdeal.Gen.hostOps0, Cert.KernelIdeal.Gen.hostOps0_1, Cert.KernelIdeal.Gen.hostOps0_2, Cert.SgcHead.RefOps.propOps,
    List.flatten_cons, List.flatten_nil, List.append_nil, List.cons_append, List.nil_append]
  simp (disch := decide) only [after_cons, after_nil,
    nullary_result', unary_result', binary_result', ternary_result', quaternary_result', reshape_result', nary4_result',
    nary_result', unaryIndexed_result', binaryIndexed_result',
    nullary_result_ne', unary_result_ne', binary_result_ne', ternary_result_ne', quaternary_result_ne', reshape_result_ne',
    nary_result_ne', unaryIndexed_result_ne', binaryIndexed_result_ne', concatenate_pair]
  rw [h0, h1]
  rfl

/-- THE PROPAGATED FEATURES AGREE: from memories that agree on the features and on the edge list, the propagated
    features as the kernel's region finds them are what the reference's first 88 operations leave. -/
theorem propagated_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.KernelIdeal.Gen.V m c Cert.KernelIdeal.main_v68 : (⟨2, ![100000, 64]⟩ : Shape).Idx → EReal)
      = after (Cert.SgcHead.RefOps.propOps (F := Ideal)) (launchContents m' c) (Proc.devRef .tc Cert.ReferenceIdeal.main_v68) :=
  after_eq (fun b => m (c, b)) (launchContents m' c) h0 h1

end Cert.SgcHead.Propagate

end
-- ==== Proof.lean ====
/-
  A simple graph convolution with a dense head: the kernel and its reference compute one function.

  Both programs first propagate the node features `x : [100000, 64]` along the graph — self-loops appended, edges
  weighted by the inverse square roots of the degrees at both ends, three rounds of gather, scale and scatter-add —
  by the same host operations, and then apply two affine layers to every node's row: `h = p·W₁ + b₁` (64 → 64) and
  `out = h·W₂ + b₂` (64 → 40). The reference applies the layers on the host to the whole array; the kernel applies
  them in a pallas_call over 10 grid points, point `t` to rows `10000·t … 10000·t + 9999`, rounding the operands of
  each matmul to bf16 on the way in.

  At the extended reals rounding is the identity, a matmul into a zero accumulator and a host `dot_general` are the
  same plain sum over the contracted coordinate, and a bias row broadcast over the rows reads its one row. So an
  output entry `(r, c)` is, in both programs,

      ∑ₖ (∑ⱼ P r j · W₁ j k + b₁ k) · W₂ k c + b₂ c

  of the propagated features `P` — a function of row `r` alone, which is why the kernel's 10 blocks are the blocks of
  one whole-array function and tile it. The two sides are the same expression in the same grouping: no sum is
  reordered, no product distributed, so nothing needs the inputs to be finite and the precondition is never opened.
  The propagated features themselves are never computed: the two programs' propagation lines are the same
  operations, so from agreeing features and edges they leave the same array.

  The frames of the two kernel programs are the generated frame certificates; the reference has no kernel, and its
  frame is its run with the result dropped. The idealization rewrote no operation, so `preserves` holds trivially.
-/
import proofs.«179937_j5643587027282_1_alg».proof.Defs
import proofs.«179937_j5643587027282_1_alg».proof.Proof.Gen.Kernel
import proofs.«179937_j5643587027282_1_alg».proof.Proof.Gen.Kernel.Skeleton
import proofs.«179937_j5643587027282_1_alg».proof.Proof.Gen.Kernel.Launch
import proofs.«179937_j5643587027282_1_alg».proof.Proof.Gen.Kernel.Points
import proofs.«179937_j5643587027282_1_alg».proof.Proof.Gen.Kernel.Frame
import proofs.«179937_j5643587027282_1_alg».proof.Proof.Gen.KernelIdeal
import proofs.«179937_j5643587027282_1_alg».proof.Proof.Gen.KernelIdeal.Skeleton
import proofs.«179937_j5643587027282_1_alg».proof.Proof.Gen.KernelIdeal.Launch
import proofs.«179937_j5643587027282_1_alg».proof.Proof.Gen.KernelIdeal.Points
import proofs.«179937_j5643587027282_1_alg».proof.Proof.Gen.KernelIdeal.Frame
import proofs.«179937_j5643587027282_1_alg».proof.Proof.Gen.ReferenceIdeal
import proofs.«179937_j5643587027282_1_alg».proof.Proof.Gen.Pre_finite_inputs
import proofs.«179937_j5643587027282_1_alg».proof.Proof.Gen.KernelIdeal.Value
import proofs.«179937_j5643587027282_1_alg».proof.Proof.KernelArray
import proofs.«179937_j5643587027282_1_alg».proof.Proof.RefRun
import proofs.«179937_j5643587027282_1_alg».proof.Proof.RefRows
import proofs.«179937_j5643587027282_1_alg».proof.Proof.Propagate
import Idealize.ShloMosaic.Adequacy
import Idealize.ShloMosaic.Init

noncomputable section

namespace Cert.Proof

open Idealize.ShloMosaic Idealize.SL.Sem Idealize.ShloMosaic.StableHlo

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run, read back, with the result dropped. -/
theorem frame_referenceIdeal : Cert.frame_ReferenceIdeal := fun m ρ _ =>
  (θ_run Cert.ReferenceIdeal.defs _ _).mono (fun _ h c => (h c).2) (Cert.SgcHead.RefRun.run (F := Ideal) m ρ)

/-! ## The idealization -/

/-- The ideal pass rewrote no operation: there is nothing to restate. -/
theorem preserves : Cert.preserves_Kernel_KernelIdeal := trivial

/-! ## The two idealized programs agree -/

/-- From memories agreeing on the arguments both programs end with the output at the head — `headOf` — of the
    propagated features and the four parameter arrays: the kernel because its 10 blocks are the blocks of that one
    function, the reference because its last eight operations are that function, and the two propagated arrays are
    one because the two propagation lines are the same operations. -/
theorem algebraic : Cert.algebraic_KernelIdeal_ReferenceIdeal := by
  intro m ρ m' ρ' _ hagree
  refine ⟨fun c => Cert.SgcHead.headOf (Cert.KernelIdeal.Gen.V m c Cert.KernelIdeal.main_v68)
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.SgcHead.KernelArray.run m ρ, ?_⟩
  refine (θ_run Cert.ReferenceIdeal.defs _ _).mono (fun r h c => ⟨?_, (h c).2⟩)
    (Cert.SgcHead.RefRun.run (F := Ideal) m' ρ')
  have hP := Cert.SgcHead.Propagate.propagated_eq m m' c (hagree c).1 (hagree c).2.1
  have h2 := (hagree c).2.2.1
  have h3 := (hagree c).2.2.2.1
  have h4 := (hagree c).2.2.2.2.1
  have h5 := (hagree c).2.2.2.2.2
  refine ((h c).1.trans (Cert.SgcHead.RefRows.denseTail_eq _ _ _ _ _)).trans ?_
  rw [← hP, h2, h3, h4, h5]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
